-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S_ : Shape := ⟨0, ![]⟩

class Facts : Prop where
  bcast_S_S2x4194304x3 : S_.BroadcastsInDim S2x4194304x3 (![] : Fin 0 → Fin S2x4194304x3.rank)
  reducesTo_S2x4194304x3_S_d0_1_2 : S2x4194304x3.ReducesTo [0, 1, 2] S_
  h_S_ : 0 < S_.numel
  bcast_S_S1 : S_.BroadcastsInDim S1 (![] : Fin 0 → Fin S1.rank)
  reducesTo_S1_S_d0 : S1.ReducesTo [0] S_
  bcast_S_S4 : S_.BroadcastsInDim S4 (![] : Fin 0 → Fin S4.rank)
  reducesTo_S4_S_d0 : S4.ReducesTo [0] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S2x4194304x3 .f32) (main_arg1 : FVec F S1 .f32) (main_arg2 : FVec F S4 .f32) (main_arg3 : FVec F S9 .f32) (main_arg4 : FVec F S9 .f32) : IVec S_ 1 :=
  let main_v0 : FVec F S2x4194304x3 .f32 := Host.absf main_arg0
  let main_cst : FVec F S_ .f32 := constant S_ .f32 0x7F800000#32
  let main_v1 : FVec F S2x4194304x3 .f32 := broadcastInDim S2x4194304x3 ![] bcast_S_S2x4194304x3 main_cst
  let main_v2 : IVec S2x4194304x3 1 := cmpf .olt main_v0 main_v1
  let main_c : IVec S_ 1 := constantI S_ 1 1#1
  let main_v3 : IVec S_ 1 := (fun x v => Host.reduce IntOp.andi x v reducesTo_S2x4194304x3_S_d0_1_2 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg4 main_v13 main_v16
-- ==== Kernel.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S4194304x36 : Shape := ⟨2, ![4194304, 36]⟩
abbrev S2x2048x3 : Shape := ⟨3, ![2, 2048, 3]⟩
abbrev S2048x36 : Shape := ⟨2, ![2048, 36]⟩
abbrev S1x2048x3 : Shape := ⟨3, ![1, 2048, 3]⟩
abbrev S2048x3 : Shape := ⟨2, ![2048, 3]⟩
abbrev S2048 : Shape := ⟨1, ![2048]⟩
abbrev S2048x1 : Shape := ⟨2, ![2048, 1]⟩
abbrev S1x9 : Shape := ⟨2, ![1, 9]⟩
abbrev S2048x9 : Shape := ⟨2, ![2048, 9]⟩
abbrev S1x4 : Shape := ⟨2, ![1, 4]⟩
abbrev S2048x4 : Shape := ⟨2, ![2048, 4]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x4194304x3, .f32⟩
  | .hbm, ⟨1, _⟩ => ⟨S1, .f32⟩
  | .hbm, ⟨2, _⟩ => ⟨S4, .f32⟩
  | .hbm, ⟨3, _⟩ => ⟨S9, .f32⟩
  | .hbm, ⟨4, _⟩ => ⟨S9, .f32⟩
  | .hbm, ⟨5, _⟩ => ⟨S4194304x36, .f32⟩
  | .local _ .vmem, ⟨0, _⟩ => ⟨S2x2048x3, .f32⟩
  | .local _ .vmem, ⟨1, _⟩ => ⟨S2x2048x3, .f32⟩
  | .local _ .vmem, ⟨2, _⟩ => ⟨S1, .f32⟩
  | .local _ .vmem, ⟨3, _⟩ => ⟨S4, .f32⟩
  | .local _ .vmem, ⟨4, _⟩ => ⟨S9, .f32⟩
  | .local _ .vmem, ⟨5, _⟩ => ⟨S9, .f32⟩
  | .local _ .vmem, ⟨6, _⟩ => ⟨S2048x36, .f32⟩
  | .local _ .vmem, ⟨7, _⟩ => ⟨S2048x36, .f32⟩
  | _, _ => ⟨S2x4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x2048x3_S1x2048x3_0_0_0 : ∀ a, (![0, 0, 0] : Fin 3 → Nat) a + S1x2048x3.size a ≤ S2x2048x3.size a
  h_S1x2048x3 : 0 < S1x2048x3.numel
  shapeCasts_S1x2048x3_S2048x3 : S1x2048x3.ShapeCasts S2048x3
  inb_S2x2048x3_S1x2048x3_1_0_0 : ∀ a, (![1, 0, 0] : Fin 3 → Nat) a + S1x2048x3.size a ≤ S2x2048x3.size a
  reduces_S2048x3_S2048 : S2048x3.Reduces [1] S2048
  shapeCasts_S2048_S2048x1 : S2048.ShapeCasts S2048x1
  inb_S9_S9_0 : ∀ a, (![0] : Fin 1 → Nat) a + S9.size a ≤ S9.size a
  h_S9 : 0 < S9.numel
  shapeCasts_S9_S1x9 : S9.ShapeCasts S1x9
  broadcasts_S2048x1_S2048x9 : S2048x1.Broadcasts S2048x9
  broadcasts_S1x9_S2048x9 : S1x9.Broadcasts S2048x9
  inb_S1_S1_0 : ∀ a, (![0] : Fin 1 → Nat) a + S1.size a ≤ S1.size a
  h_S1 : 0 < S1.numel
  inb_S4_S4_0 : ∀ a, (![0] : Fin 1 → Nat) a + S4.size a ≤ S4.size a
  h_S4 : 0 < S4.numel
  shapeCasts_S4_S1x4 : S4.ShapeCasts S1x4
  broadcasts_S2048x1_S2048x4 : S2048x1.Broadcasts S2048x4
  broadcasts_S1x4_S2048x4 : S1x4.Broadcasts S2048x4
  shapeCasts_S1_S1x1 : S1.ShapeCasts S1x1
  broadcasts_S1x1_S2048x4 : S1x1.Broadcasts S2048x4
  concatenates_S2048x9_S2048x9_S2048x9_S2048x9_S2048x36_d1 : Shape.Concatenates [S2048x9, S2048x9, S2048x9, S2048x9] S2048x36 1
  slices_S2048x4_o0_0_S2048x1 : S2048x4.Slices ![0, 0] S2048x1
  shapeCasts_S2048x1_S2048x1 : S2048x1.ShapeCasts S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  broadcasts_S2048x1_S2048x36 : S2048x1.Broadcasts S2048x36
  inb_S2048x36_S2048x36_0_0 : ∀ a, (![0, 0] : Fin 2 → Nat) a + S2048x36.size a ≤ S2048x36.size a
  h_S2048x36 : 0 < S2048x36.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x3.size a ≤ S2x4194304x3.size a
  hwx0_0 : ∀ i : grid0.Coords, EltTy.bits .f32 = 32 ∨ (Rect.block (s := S2x4194304x3) S2x2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9.size a ≤ S9.size a
  hwx0_3 : ∀ i : grid0.Coords, EltTy.bits .f32 = 32 ∨ (Rect.block (s := S9) S9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9.size a ≤ S9.size a
  hwx0_4 : ∀ i : grid0.Coords, EltTy.bits .f32 = 32 ∨ (Rect.block (s := S9) S9.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x36.size a ≤ S4194304x36.size a
  hwx0_5 : ∀ i : grid0.Coords, EltTy.bits .f32 = 32 ∨ (Rect.block (s := S4194304x36) S2048x36.size (cc0_transform_5 i) (hinb0_5 i)).WholeWords (EltTy.packing .f32)

variable [Facts₀]

abbrev win0_0 : Pipeline.Window sig grid0 :=
  Pipeline.Window.ofSpec (Memref.whole main_arg0) S2x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x36.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S_ : Shape := ⟨0, ![]⟩
abbrev S2x4194304 : Shape := ⟨2, ![2, 4194304]⟩
abbrev S1x4194304x3 : Shape := ⟨3, ![1, 4194304, 3]⟩
abbrev S4194304x3 : Shape := ⟨2, ![4194304, 3]⟩
abbrev S4194304 : Shape := ⟨1, ![4194304]⟩
abbrev S1x4194304 : Shape := ⟨2, ![1, 4194304]⟩
abbrev S4194304x1x1x1 : Shape := ⟨4, ![4194304, 1, 1, 1]⟩
abbrev S1x1x1x9 : Shape := ⟨4, ![1, 1, 1, 9]⟩
abbrev S4194304x1x1x9 : Shape := ⟨4, ![4194304, 1, 1, 9]⟩
abbrev S1x1x1x1 : Shape := ⟨4, ![1, 1, 1, 1]⟩
abbrev S1x1x4x1 : Shape := ⟨4, ![1, 1, 4, 1]⟩
abbrev S4194304x1x4x1 : Shape := ⟨4, ![4194304, 1, 4, 1]⟩
abbrev S4194304x1x4x9 : Shape := ⟨4, ![4194304, 1, 4, 9]⟩
abbrev S4194304x36 : Shape := ⟨2, ![4194304, 36]⟩

abbrev nBuf : Space → Nat
  | .hbm => 79
  | .vmem => 0
  | .smem => 0
  | _ => 0

abbrev bufTy : (tb : Table) → Fin (tcTables nBuf tb) → BufTy
  | .hbm, ⟨0, _⟩ => ⟨S2x4194304x3, .f32⟩
  | .hbm, ⟨1, _⟩ => ⟨S1, .f32⟩
  | .hbm, ⟨2, _⟩ => ⟨S4, .f32⟩
  | .hbm, ⟨3, _⟩ => ⟨S9, .f32⟩
  | .hbm, ⟨4, _⟩ => ⟨S9, .f32⟩
  | .hbm, ⟨5, _⟩ => ⟨S2x4194304x3, .f32⟩
  | .hbm, ⟨6, _⟩ => ⟨S_, .f32⟩
  | .hbm, ⟨7, _⟩ => ⟨S2x4194304, .f32⟩
  | .hbm, ⟨8, _⟩ => ⟨S2x4194304, .f32⟩
  | .hbm, ⟨9, _⟩ => ⟨S1x4194304x3, .f32⟩
  | .hbm, ⟨10, _⟩ => ⟨S4194304x3, .f32⟩
  | .hbm, ⟨11, _⟩ => ⟨S1x4194304x3, .f32⟩
  | .hbm, ⟨12, _⟩ => ⟨S4194304x3, .f32⟩
  | .hbm, ⟨13, _⟩ => ⟨S4194304x3, .f32⟩
  | .hbm, ⟨14, _⟩ => ⟨S_, .f32⟩
  | .hbm, ⟨15, _⟩ => ⟨S4194304, .f32⟩
  | .hbm, ⟨16, _⟩ => ⟨S1x4194304, .f32⟩
  | .hbm, ⟨17, _⟩ => ⟨S4194304, .f32⟩
  | .hbm, ⟨18, _⟩ => ⟨S1x4194304, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S2x4194304, .f32⟩
  | .hbm, ⟨26, _⟩ => ⟨S_, .f32⟩
  | .hbm, ⟨27, _⟩ => ⟨S2x4194304, .f32⟩
  | .hbm, ⟨28, _⟩ => ⟨S2x4194304, .f32⟩
  | .hbm, ⟨29, _⟩ => ⟨S2x4194304, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x4194304, .f32⟩
  | .hbm, ⟨34, _⟩ => ⟨S2x4194304, .f32⟩
  | .hbm, ⟨35, _⟩ => ⟨S1x4194304, .f32⟩
  | .hbm, ⟨36, _⟩ => ⟨S4194304, .f32⟩
  | .hbm, ⟨37, _⟩ => ⟨S1x4194304, .f32⟩
  | .hbm, ⟨38, _⟩ => ⟨S4194304, .f32⟩
  | .hbm, ⟨39, _⟩ => ⟨S4194304, .f32⟩
  | .hbm, ⟨40, _⟩ => ⟨S4194304x1x1x1, .f32⟩
  | .hbm, ⟨41, _⟩ => ⟨S9, .f32⟩
  | .hbm, ⟨42, _⟩ => ⟨S1x1x1x9, .f32⟩
  | .hbm, ⟨43, _⟩ => ⟨S4194304x1x1x9, .f32⟩
  | .hbm, ⟨44, _⟩ => ⟨S4194304x1x1x9, .f32⟩
  | .hbm, ⟨45, _⟩ => ⟨S4194304x1x1x9, .f32⟩
  | .hbm, ⟨46, _⟩ => ⟨S4194304x1x1x9, .f32⟩
  | .hbm, ⟨47, _⟩ => ⟨S1x1x1x9, .f32⟩
  | .hbm, ⟨48, _⟩ => ⟨S4194304x1x1x9, .f32⟩
  | .hbm, ⟨49, _⟩ => ⟨S4194304x1x1x9, .f32⟩
  | .hbm, ⟨50, _⟩ => ⟨S1x4194304, .f32⟩
  | .hbm, ⟨51, _⟩ => ⟨S4194304, .f32⟩
  | .hbm, ⟨52, _⟩ => ⟨S1x4194304, .f32⟩
  | .hbm, ⟨53, _⟩ => ⟨S4194304, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .f32⟩
  | .hbm, ⟨58, _⟩ => ⟨S1x1x1x1, .f32⟩
  | .hbm, ⟨59, _⟩ => ⟨S4194304x1x1x1, .f32⟩
  | .hbm, ⟨60, _⟩ => ⟨S1x1x4x1, .f32⟩
  | .hbm, ⟨61, _⟩ => ⟨S4194304x1x4x1, .f32⟩
  | .hbm, ⟨62, _⟩ => ⟨S4194304x1x4x1, .f32⟩
  | .hbm, ⟨63, _⟩ => ⟨S4194304x1x4x1, .f32⟩
  | .hbm, ⟨64, _⟩ => ⟨S4194304x1x4x1, .f32⟩
  | .hbm, ⟨65, _⟩ => ⟨S4194304x1x4x1, .f32⟩
  | .hbm, ⟨66, _⟩ => ⟨S4194304x1x4x1, .f32⟩
  | .hbm, ⟨67, _⟩ => ⟨S4194304x1x4x9, .f32⟩
  | .hbm, ⟨68, _⟩ => ⟨S4194304x1x4x9, .f32⟩
  | .hbm, ⟨69, _⟩ => ⟨S4194304x1x4x9, .f32⟩
  | .hbm, ⟨70, _⟩ => ⟨S4194304x1x4x9, .f32⟩
  | .hbm, ⟨71, _⟩ => ⟨S4194304x1x4x9, .f32⟩
  | .hbm, ⟨72, _⟩ => ⟨S_, .f32⟩
  | .hbm, ⟨73, _⟩ => ⟨S4194304x1x4x9, .f32⟩
  | .hbm, ⟨74, _⟩ => ⟨S4194304x1x4x9, .f32⟩
  | .hbm, ⟨75, _⟩ => ⟨S4194304x1x1x1, .f32⟩
  | .hbm, ⟨76, _⟩ => ⟨S4194304x1x4x9, .f32⟩
  | .hbm, ⟨77, _⟩ => ⟨S4194304x1x4x9, .f32⟩
  | .hbm, ⟨78, _⟩ => ⟨S4194304x36, .f32⟩
  | _, _ => ⟨S2x4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]

class Facts₀ : Prop where
  reducesTo_S2x4194304x3_S2x4194304_d2 : S2x4194304x3.ReducesTo [2] S2x4194304
  h_S_ : 0 < S_.numel
  slices_S2x4194304x3_S1x4194304x3_0_0_0 : S2x4194304x3.Slices ![0, 0, 0] S1x4194304x3
  shapeCasts_S1x4194304x3_S4194304x3 : S1x4194304x3.ShapeCasts S4194304x3
  slices_S2x4194304x3_S1x4194304x3_1_0_0 : S2x4194304x3.Slices ![1, 0, 0] S1x4194304x3
  reducesTo_S4194304x3_S4194304_d1 : S4194304x3.ReducesTo [1] S4194304
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S2x4194304 : S_.BroadcastsInDim S2x4194304 (![] : Fin 0 → Fin S2x4194304.rank)
  bcast_S4194304_S4194304x1x1x1_0 : S4194304.BroadcastsInDim S4194304x1x1x1 (![0] : Fin 1 → Fin S4194304x1x1x1.rank)
  bcast_S9_S1x1x1x9_3 : S9.BroadcastsInDim S1x1x1x9 (![3] : Fin 1 → Fin S1x1x1x9.rank)
  bcast_S4194304x1x1x1_S4194304x1x1x9_0_1_2_3 : S4194304x1x1x1.BroadcastsInDim S4194304x1x1x9 (![0, 1, 2, 3] : Fin 4 → Fin S4194304x1x1x9.rank)
  bcast_S1x1x1x9_S4194304x1x1x9_0_1_2_3 : S1x1x1x9.BroadcastsInDim S4194304x1x1x9 (![0, 1, 2, 3] : Fin 4 → Fin S4194304x1x1x9.rank)
  bcast_S1_S1x1x1x1_1 : S1.BroadcastsInDim S1x1x1x1 (![1] : Fin 1 → Fin S1x1x1x1.rank)
  bcast_S4_S1x1x4x1_2 : S4.BroadcastsInDim S1x1x4x1 (![2] : Fin 1 → Fin S1x1x4x1.rank)
  bcast_S4194304x1x1x1_S4194304x1x4x1_0_1_2_3 : S4194304x1x1x1.BroadcastsInDim S4194304x1x4x1 (![0, 1, 2, 3] : Fin 4 → Fin S4194304x1x4x1.rank)
  bcast_S1x1x4x1_S4194304x1x4x1_0_1_2_3 : S1x1x4x1.BroadcastsInDim S4194304x1x4x1 (![0, 1, 2, 3] : Fin 4 → Fin S4194304x1x4x1.rank)
  bcast_S1x1x1x1_S4194304x1x4x1_0_1_2_3 : S1x1x1x1.BroadcastsInDim S4194304x1x4x1 (![0, 1, 2, 3] : Fin 4 → Fin S4194304x1x4x1.rank)
  bcast_S4194304x1x1x9_S4194304x1x4x9_0_1_2_3 : S4194304x1x1x9.BroadcastsInDim S4194304x1x4x9 (![0, 1, 2, 3] : Fin 4 → Fin S4194304x1x4x9.rank)
  bcast_S4194304x1x4x1_S4194304x1x4x9_0_1_2_3 : S4194304x1x4x1.BroadcastsInDim S4194304x1x4x9 (![0, 1, 2, 3] : Fin 4 → Fin S4194304x1x4x9.rank)
  bcast_S_S4194304x1x4x9 : S_.BroadcastsInDim S4194304x1x4x9 (![] : Fin 0 → Fin S4194304x1x4x9.rank)
  bcast_S4194304x1x1x1_S4194304x1x4x9_0_1_2_3 : S4194304x1x1x1.BroadcastsInDim S4194304x1x4x9 (![0, 1, 2, 3] : Fin 4 → Fin S4194304x1x4x9.rank)
  shapeCasts_S4194304x1x4x9_S4194304x36 : S4194304x1x4x9.ShapeCasts S4194304x36

variable [Facts₀]

class Facts : Prop extends Facts₀ where

variable [Facts]
-- ==== Proof.AngularLaws.lean ====
/-
  The laws on the extended reals that join the two sides of this certificate.

  The kernel's cutoff factor is (c² - d²)² / c⁴ with d² the sum of squares of a displacement and c⁴ the single
  constant 150.0625; the reference's is (c² - ‖v‖·‖v‖)² / (c²·c²) with ‖v‖ = √d² and c² = 12.25. They agree because
  a sum of squares is non-negative, the square root of a non-negative extended real squares back to it (also at +∞:
  √⊤ = ⊤ and ⊤·⊤ = ⊤), and 12.25 · 12.25 = 150.0625 exactly. The kernel negates by subtracting from zero, the
  reference by negation: 0 - x = -x on every extended real.
-/
import Idealize.ShloMosaic.PureOps.Ideal

noncomputable section

namespace Cert.AngularLaws

open Idealize.ShloMosaic

/-- The pattern of `12.25` denotes the real 49/4. -/
theorem ofBits_c2 : Ideal.ofBits .f32 0x41440000#32 = ((49 / 4 : ℝ) : EReal) := by
  simp [Ideal.ofBits, Ideal.ieee, -EReal.coe_mul]; norm_num

/-- The pattern of `150.0625` denotes the real 2401/16. -/
theorem ofBits_c4 : Ideal.ofBits .f32 0x43161000#32 = ((2401 / 16 : ℝ) : EReal) := by
  simp [Ideal.ofBits, Ideal.ieee, -EReal.coe_mul]; norm_num

/-- 12.25 · 12.25 = 150.0625, between the patterns' values. -/
theorem c2_mul_c2 : Ideal.ofBits .f32 0x41440000#32 * Ideal.ofBits .f32 0x41440000#32 = Ideal.ofBits .f32 0x43161000#32 := by
  rw [ofBits_c2, ofBits_c4, ← EReal.coe_mul]; norm_num

/-- The zero pattern denotes 0. -/
theorem ofBits_zero : Ideal.ofBits .f32 0x00000000#32 = 0 := by
  simp [Ideal.ofBits, Ideal.ieee]

/-- Subtracting from the zero pattern is negation. -/
theorem zero_sub_eq_neg (x : EReal) : Ideal.ofBits .f32 0x00000000#32 - x = -x := by
  rw [ofBits_zero, zero_sub]

/-- A square is non-negative on the extended reals: (±∞)·(±∞) = +∞, and a real's square is non-negative. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

/-- A sum of three squares is non-negative. -/
theorem sum_sq_nonneg (f : Fin 3 → EReal) : 0 ≤ ∑ k : Fin 3, f k * f k :=
  Finset.sum_nonneg fun k _ => mul_self_nonneg (f k)

/-- The square root of a non-negative extended real squares back to it. -/
theorem sqrt_mul_self {x : EReal} (h : 0 ≤ x) : Ideal.sqrt x * Ideal.sqrt x = x := by
  induction x using EReal.rec with
  | bot => exact absurd h (by simp)
  | top => rw [Ideal.sqrt_top, EReal.top_mul_top]
  | coe r =>
    have hr : 0 ≤ r := EReal.coe_nonneg.mp h
    rw [Ideal.sqrt_coe, if_neg (not_lt.mpr hr), ← EReal.coe_mul, Real.mul_self_sqrt hr]

end Cert.AngularLaws

end
-- ==== Proof.AngularSpec.lean ====
/-
  The specification: what both programs compute, as ONE function of the five argument arrays.

  For a pair p with displacement vectors u = v[0, p, :] and w = v[1, p, :] write s₀ = Σ uₖ², s₁ = Σ wₖ², d = Σ uₖ wₖ.
  Output entry (p, 9·a + z) is

      4 · exp (0 - (γ_z · (d / max (√s₀ · √s₁) ε - cos ζ_z)² + η · (½ (√s₀ + √s₁) - shf_a)²)) · ((c² - s₀)² / c⁴ · (c² - s₁)² / c⁴)

  with c² = 12.25, c⁴ = 150.0625, ε = 1e-10 (the f32 patterns, read as the extended reals they denote). `entry` is
  this arrangement (the kernel's); `entryRef` is the reference's, which squares the norm √s back (√s · √s in place of s),
  divides by c² · c² in place of c⁴ and negates instead of subtracting from zero. They agree where s₀, s₁ ≥ 0, and row
  sums of squares are.
-/
import Idealize.ShloMosaic.PureOps.Ideal
import Idealize.ShloMosaic.Lib.ValueIdx
import proofs.«160264_j29824252903586_2_alg».proof.Proof.AngularLaws

noncomputable section

namespace Cert.AngularSpec

open Idealize.ShloMosaic Idealize.ShloMosaic.ValueIdx

/-- The cosine of the angle between the two displacements, from the three row sums: d / max (√s₀ · √s₁) ε. -/
def cosAngle (s0 s1 dt : EReal) : EReal :=
  Ideal.div dt (max (Ideal.sqrt s0 * Ideal.sqrt s1) (Ideal.ofBits .f32 0x2EDBE6FF#32))

/-- The mean of the two norms, ½ (√s₀ + √s₁). -/
def meanNorm (s0 s1 : EReal) : EReal :=
  Ideal.ofBits .f32 0x3F000000#32 * (Ideal.sqrt s0 + Ideal.sqrt s1)

/-- The exponent's argument: γ (cos θ - cos ζ)² + η (d̄ - shf)². -/
def exponent (s0 s1 dt eta shf gam zeta : EReal) : EReal :=
  gam * ((cosAngle s0 s1 dt - Ideal.cos zeta) * (cosAngle s0 s1 dt - Ideal.cos zeta))
    + eta * ((meanNorm s0 s1 - shf) * (meanNorm s0 s1 - shf))

/-- One cutoff factor in the kernel's arrangement, (c² - s)² / c⁴. -/
def cutoff (s : EReal) : EReal :=
  Ideal.div ((Ideal.ofBits .f32 0x41440000#32 - s) * (Ideal.ofBits .f32 0x41440000#32 - s)) (Ideal.ofBits .f32 0x43161000#32)

/-- One cutoff factor in the reference's arrangement, (c² - √s · √s)² / (c² · c²). -/
def cutoffRef (s : EReal) : EReal :=
  Ideal.div ((Ideal.ofBits .f32 0x41440000#32 - Ideal.sqrt s * Ideal.sqrt s) * (Ideal.ofBits .f32 0x41440000#32 - Ideal.sqrt s * Ideal.sqrt s))
    (Ideal.ofBits .f32 0x41440000#32 * Ideal.ofBits .f32 0x41440000#32)

/-- One output entry, the kernel's arrangement. -/
def entry (s0 s1 dt eta shf gam zeta : EReal) : EReal :=
  Ideal.ofBits .f32 0x40800000#32 * Ideal.exp (Ideal.ofBits .f32 0x00000000#32 - exponent s0 s1 dt eta shf gam zeta)
    * (cutoff s0 * cutoff s1)

/-- One output entry, the reference's arrangement. -/
def entryRef (s0 s1 dt eta shf gam zeta : EReal) : EReal :=
  Ideal.ofBits .f32 0x40800000#32 * Ideal.exp (-exponent s0 s1 dt eta shf gam zeta)
    * (cutoffRef s0 * cutoffRef s1)

/-- The two cutoff arrangements agree on a non-negative argument: √s · √s = s and c² · c² = c⁴. -/
theorem cutoffRef_eq {s : EReal} (h : 0 ≤ s) : cutoffRef s = cutoff s := by
  unfold cutoffRef cutoff
  rw [AngularLaws.sqrt_mul_self h, AngularLaws.c2_mul_c2]

/-- The two arrangements of an entry agree where the two sums of squares are non-negative. -/
theorem entryRef_eq {s0 s1 : EReal} (h0 : 0 ≤ s0) (h1 : 0 ≤ s1) (dt eta shf gam zeta : EReal) :
    entryRef s0 s1 dt eta shf gam zeta = entry s0 s1 dt eta shf gam zeta := by
  unfold entryRef entry
  rw [cutoffRef_eq h0, cutoffRef_eq h1, AngularLaws.zero_sub_eq_neg]

/-- Σₖ v[s, p, k] · v[s', p, k]: a row's sum of squares (s = s') or the two rows' inner product. -/
def rowSum (v : FVec Ideal ⟨3, ![2, 4194304, 3]⟩ .f32) (s s' : Fin 2) (p : Fin 4194304) : EReal :=
  ∑ k : Fin 3, v (ix3 s p k) * v (ix3 s' p k)

theorem rowSum_self_nonneg (v : FVec Ideal ⟨3, ![2, 4194304, 3]⟩ .f32) (s : Fin 2) (p : Fin 4194304) : 0 ≤ rowSum v s s p :=
  AngularLaws.sum_sq_nonneg fun k => v (ix3 s p k)

/-- Which shift a column of the 36 belongs to (a = column / 9), -/
def grp (c : Fin 36) : Fin 4 := ⟨c.val / 9, by omega⟩
/-- and which angular section (z = column mod 9): the flat order a · 9 + z. -/
def lane (c : Fin 36) : Fin 9 := ⟨c.val % 9, by omega⟩

/-- THE RESULT ARRAY as a function of the argument arrays, index by index. -/
def G (v : FVec Ideal ⟨3, ![2, 4194304, 3]⟩ .f32) (eta : FVec Ideal ⟨1, ![1]⟩ .f32) (shfa : FVec Ideal ⟨1, ![4]⟩ .f32)
    (gamma shfz : FVec Ideal ⟨1, ![9]⟩ .f32) : FVec Ideal ⟨2, ![4194304, 36]⟩ .f32 := fun i =>
  entry (rowSum v 0 0 (i 0)) (rowSum v 1 1 (i 0)) (rowSum v 0 1 (i 0))
    (eta (ix1 0)) (shfa (ix1 (grp (i 1)))) (gamma (ix1 (lane (i 1)))) (shfz (ix1 (lane (i 1))))

end Cert.AngularSpec

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelBlock.lean ====
/-
  One block of the kernel's output, entry by entry.

  The body loads the two displacement slabs u = P1, w = P2 (each [1, 2048, 3]) and the four tables, and stores one
  [2048, 36] block. Row r of the block depends on row r of the slabs only, through the three lane sums
  s₀ = Σₖ u[r,k]², s₁ = Σₖ w[r,k]², d = Σₖ u[r,k] w[r,k]; column c = 9·a + z picks shift a and angular section z.
  The generated reading of the store (`E5`) has already selected, per column, the operand of each concatenation that
  holds it; what is left is to read every operand at its index: lane sums kept as columns, columns and rows broadcast
  over the block, a column sliced out of a [2048, 4] value. The result is `AngularSpec.entry` of the row sums and the
  table entries.
-/
import proofs.«160264_j29824252903586_2_alg».proof.Proof.Gen.KernelIdeal.Value
import proofs.«160264_j29824252903586_2_alg».proof.Proof.AngularSpec
import proofs.«160264_j29824252903586_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.KernelIdeal.Value Idealize.ShloMosaic Idealize.ShloMosaic.ValueIdx Cert.AngularSpec

/-- Σₖ P[0, r, k] · Q[0, r, k]: row r's lane sum of the product of two loaded slabs. -/
def slabSum (P Q : FVec Ideal S1x2048x3 .f32) (r : Fin 2048) : EReal :=
  ∑ k : Fin 3, P (ix3 (0 : Fin 1) r k) * Q (ix3 (0 : Fin 1) r k)

/-- The body's lane sum of the product of two slabs (each first cast from [1, 2048, 3] to [2048, 3]). -/
abbrev laneSum (P Q : FVec Ideal S1x2048x3 .f32) : FVec Ideal S2048 .f32 :=
  multiReduction (F := Ideal) .add [1] S2048 (mulf (shapeCast S2048x3 P shapeCasts_S1x2048x3_S2048x3) (shapeCast S2048x3 Q shapeCasts_S1x2048x3_S2048x3))
    0x00000000#32 reduces_S2048x3_S2048 (.inl rfl) rfl

/-- The lane sum at row r is the row's sum. -/
theorem laneSum_apply (P Q : FVec Ideal S1x2048x3 .f32) (r : Fin 2048) : laneSum P Q (ix1 r) = slabSum P Q r := by
  refine (multiReduction_add_axis1_apply _ reduces_S2048x3_S2048 (.inl rfl) rfl r).trans ?_
  refine Finset.sum_congr rfl fun k _ => ?_
  show shapeCast S2048x3 P shapeCasts_S1x2048x3_S2048x3 (ix2 r k) * shapeCast S2048x3 Q shapeCasts_S1x2048x3_S2048x3 (ix2 r k) = _
  rw [shapeCast_1ab_ab_apply, shapeCast_1ab_ab_apply]

/-- Kept as a column [2048, 1], it reads the same sum at (r, 0). -/
theorem laneCol_apply (P Q : FVec Ideal S1x2048x3 .f32) (r : Fin 2048) (u : Fin 1) :
    shapeCast S2048x1 (laneSum P Q) shapeCasts_S2048_S2048x1 (ix2 r u) = slabSum P Q r :=
  (shapeCast_a_a1_apply _ shapeCasts_S2048_S2048x1 r u).trans (laneSum_apply P Q r)

/-- The norm column: the square root of the sum of squares. -/
theorem normCol_apply (P : FVec Ideal S1x2048x3 .f32) (r : Fin 2048) (u : Fin 1) :
    Idealize.ShloMosaic.sqrt (F := Ideal) (φ := .f32) (shapeCast S2048x1 (laneSum P P) shapeCasts_S2048_S2048x1) (ix2 r u) = Ideal.sqrt (slabSum P P r) :=
  congrArg Ideal.sqrt (laneCol_apply P P r u)

/-- A [1, 1] array broadcast to [a, b] reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The cosine column, d / max (‖u‖ ‖w‖) ε, as the body computes it. -/
abbrev cosCol (P1 P2 : FVec Ideal S1x2048x3 .f32) : FVec Ideal S2048x1 .f32 :=
  divf (F := Ideal) (shapeCast S2048x1 (laneSum P1 P2) shapeCasts_S2048_S2048x1)
    (maximumf (mulf (Idealize.ShloMosaic.sqrt (shapeCast S2048x1 (laneSum P1 P1) shapeCasts_S2048_S2048x1))
        (Idealize.ShloMosaic.sqrt (shapeCast S2048x1 (laneSum P2 P2) shapeCasts_S2048_S2048x1)))
      (broadcast S2048x1 (Scalar.ofBits .f32 0x2EDBE6FF#32)))

theorem cosCol_apply (P1 P2 : FVec Ideal S1x2048x3 .f32) (r : Fin 2048) (u : Fin 1) :
    cosCol P1 P2 (ix2 r u) = cosAngle (slabSum P1 P1 r) (slabSum P2 P2 r) (slabSum P1 P2 r) := by
  show Ideal.div (shapeCast S2048x1 (laneSum P1 P2) shapeCasts_S2048_S2048x1 (ix2 r u))
      (max (Idealize.ShloMosaic.sqrt (F := Ideal) (φ := .f32) (shapeCast S2048x1 (laneSum P1 P1) shapeCasts_S2048_S2048x1) (ix2 r u)
            * Idealize.ShloMosaic.sqrt (F := Ideal) (φ := .f32) (shapeCast S2048x1 (laneSum P2 P2) shapeCasts_S2048_S2048x1) (ix2 r u))
        (Ideal.ofBits .f32 0x2EDBE6FF#32)) = _
  rw [laneCol_apply, normCol_apply, normCol_apply]
  rfl

/-- The mean-norm column, ½ (‖u‖ + ‖w‖). -/
abbrev meanCol (P1 P2 : FVec Ideal S1x2048x3 .f32) : FVec Ideal S2048x1 .f32 :=
  mulf (F := Ideal) (broadcast S2048x1 (Scalar.ofBits .f32 0x3F000000#32))
    (addf (Idealize.ShloMosaic.sqrt (shapeCast S2048x1 (laneSum P1 P1) shapeCasts_S2048_S2048x1))
      (Idealize.ShloMosaic.sqrt (shapeCast S2048x1 (laneSum P2 P2) shapeCasts_S2048_S2048x1)))

theorem meanCol_apply (P1 P2 : FVec Ideal S1x2048x3 .f32) (r : Fin 2048) (u : Fin 1) :
    meanCol P1 P2 (ix2 r u) = meanNorm (slabSum P1 P1 r) (slabSum P2 P2 r) := by
  show Ideal.ofBits .f32 0x3F000000#32
      * (Idealize.ShloMosaic.sqrt (F := Ideal) (φ := .f32) (shapeCast S2048x1 (laneSum P1 P1) shapeCasts_S2048_S2048x1) (ix2 r u)
         + Idealize.ShloMosaic.sqrt (F := Ideal) (φ := .f32) (shapeCast S2048x1 (laneSum P2 P2) shapeCasts_S2048_S2048x1) (ix2 r u)) = _
  rw [normCol_apply, normCol_apply]
  rfl

/-- The angular term γ_z (cos θ - cos ζ_z)² over the [2048, 9] block: the cosine column and the two table rows broadcast. -/
abbrev angTerm (P0 P3 : FVec Ideal S9 .f32) (P1 P2 : FVec Ideal S1x2048x3 .f32) : FVec Ideal S2048x9 .f32 :=
  mulf (F := Ideal) (broadcastTo S2048x9 (shapeCast S1x9 P0 shapeCasts_S9_S1x9) broadcasts_S1x9_S2048x9)
    (mulf (subf (broadcastTo S2048x9 (cosCol P1 P2) broadcasts_S2048x1_S2048x9)
              (broadcastTo S2048x9 (shapeCast S1x9 (Idealize.ShloMosaic.cos P3) shapeCasts_S9_S1x9) broadcasts_S1x9_S2048x9))
          (subf (broadcastTo S2048x9 (cosCol P1 P2) broadcasts_S2048x1_S2048x9)
              (broadcastTo S2048x9 (shapeCast S1x9 (Idealize.ShloMosaic.cos P3) shapeCasts_S9_S1x9) broadcasts_S1x9_S2048x9)))

theorem angTerm_apply (P0 P3 : FVec Ideal S9 .f32) (P1 P2 : FVec Ideal S1x2048x3 .f32) (r : Fin 2048) (z : Fin 9) :
    angTerm P0 P3 P1 P2 (ix2 r z)
      = P0 (ix1 z) * ((cosAngle (slabSum P1 P1 r) (slabSum P2 P2 r) (slabSum P1 P2 r) - Ideal.cos (P3 (ix1 z)))
                      * (cosAngle (slabSum P1 P1 r) (slabSum P2 P2 r) (slabSum P1 P2 r) - Ideal.cos (P3 (ix1 z)))) := by
  show broadcastTo S2048x9 (shapeCast S1x9 P0 shapeCasts_S9_S1x9) broadcasts_S1x9_S2048x9 (ix2 r z)
      * ((broadcastTo S2048x9 (cosCol P1 P2) broadcasts_S2048x1_S2048x9 (ix2 r z)
            - broadcastTo S2048x9 (shapeCast S1x9 (Idealize.ShloMosaic.cos (F := Ideal) (φ := .f32) P3) shapeCasts_S9_S1x9) broadcasts_S1x9_S2048x9 (ix2 r z))
         * (broadcastTo S2048x9 (cosCol P1 P2) broadcasts_S2048x1_S2048x9 (ix2 r z)
            - broadcastTo S2048x9 (shapeCast S1x9 (Idealize.ShloMosaic.cos (F := Ideal) (φ := .f32) P3) shapeCasts_S9_S1x9) broadcasts_S1x9_S2048x9 (ix2 r z))) = _
  rw [broadcastTo_1b_ab_apply, broadcastTo_1b_ab_apply, broadcastTo_a1_ab_apply, shapeCast_a_1a_apply, shapeCast_a_1a_apply, cosCol_apply]
  rfl

/-- The radial term η (d̄ - shf_a)² over the [2048, 4] block. -/
abbrev radTerm (P1 P2 : FVec Ideal S1x2048x3 .f32) (P4 : FVec Ideal S1 .f32) (P5 : FVec Ideal S4 .f32) : FVec Ideal S2048x4 .f32 :=
  mulf (F := Ideal) (broadcastTo S2048x4 (shapeCast S1x1 P4 shapeCasts_S1_S1x1) broadcasts_S1x1_S2048x4)
    (mulf (subf (broadcastTo S2048x4 (meanCol P1 P2) broadcasts_S2048x1_S2048x4)
              (broadcastTo S2048x4 (shapeCast S1x4 P5 shapeCasts_S4_S1x4) broadcasts_S1x4_S2048x4))
          (subf (broadcastTo S2048x4 (meanCol P1 P2) broadcasts_S2048x1_S2048x4)
              (broadcastTo S2048x4 (shapeCast S1x4 P5 shapeCasts_S4_S1x4) broadcasts_S1x4_S2048x4)))

theorem radTerm_apply (P1 P2 : FVec Ideal S1x2048x3 .f32) (P4 : FVec Ideal S1 .f32) (P5 : FVec Ideal S4 .f32) (r : Fin 2048) (a : Fin 4) :
    radTerm P1 P2 P4 P5 (ix2 r a)
      = P4 (ix1 (0 : Fin 1)) * ((meanNorm (slabSum P1 P1 r) (slabSum P2 P2 r) - P5 (ix1 a))
                                * (meanNorm (slabSum P1 P1 r) (slabSum P2 P2 r) - P5 (ix1 a))) := by
  show broadcastTo S2048x4 (shapeCast S1x1 P4 shapeCasts_S1_S1x1) broadcasts_S1x1_S2048x4 (ix2 r a)
      * ((broadcastTo S2048x4 (meanCol P1 P2) broadcasts_S2048x1_S2048x4 (ix2 r a)
            - broadcastTo S2048x4 (shapeCast S1x4 P5 shapeCasts_S4_S1x4) broadcasts_S1x4_S2048x4 (ix2 r a))
         * (broadcastTo S2048x4 (meanCol P1 P2) broadcasts_S2048x1_S2048x4 (ix2 r a)
            - broadcastTo S2048x4 (shapeCast S1x4 P5 shapeCasts_S4_S1x4) broadcasts_S1x4_S2048x4 (ix2 r a))) = _
  rw [broadcastTo_11_ab_apply, broadcastTo_1b_ab_apply, broadcastTo_a1_ab_apply, shapeCast_a_1a_apply, shapeCast_a_1a_apply, meanCol_apply]

/-- Column o of the radial term, sliced out as a [2048, 1] column and broadcast over the nine angular sections. -/
theorem radCol_apply (X : FVec Ideal S2048x4 .f32) (o : ℕ) (h : S2048x4.Slices ![0, o] S2048x1) (k : Fin 4) (hk : k.val = o)
    (r : Fin 2048) (z : Fin 9) :
    broadcastTo S2048x9 (shapeCast S2048x1 (extractStridedSlice S2048x1 ![0, o] X h) shapeCasts_S2048x1_S2048x1) broadcasts_S2048x1_S2048x9 (ix2 r z)
      = X (ix2 r k) := by
  rw [broadcastTo_a1_ab_apply, shapeCast_self]
  exact slice2_axis1_apply o X h r (0 : Fin 1) k (by rw [hk]; rfl)

/-- Every operand of the first concatenation is the angular term (it is tiled four times along the columns). -/
theorem angCat_eq (P0 P3 : FVec Ideal S9 .f32) (P1 P2 : FVec Ideal S1x2048x3 .f32) (P4 : FVec Ideal S1 .f32) (P5 : FVec Ideal S4 .f32) (n : Fin 4) :
    Cat5_0 (F := Ideal) P0 P1 P2 P3 P4 P5 n = angTerm P0 P3 P1 P2 := by
  match n with
  | ⟨0, _⟩ => rfl
  | ⟨1, _⟩ => rfl
  | ⟨2, _⟩ => rfl
  | ⟨3, _⟩ => rfl

/-- Operand n of the second concatenation is column n of the radial term, repeated over the nine sections. -/
theorem radCat_apply (P0 P3 : FVec Ideal S9 .f32) (P1 P2 : FVec Ideal S1x2048x3 .f32) (P4 : FVec Ideal S1 .f32) (P5 : FVec Ideal S4 .f32) (n : Fin 4)
    (r : Fin 2048) (z : Fin 9) :
    Cat5_1 (F := Ideal) P0 P1 P2 P3 P4 P5 n (ix2 r z) = radTerm P1 P2 P4 P5 (ix2 r n) := by
  match n with
  | ⟨0, _⟩ => exact radCol_apply (radTerm P1 P2 P4 P5) 0 slices_S2048x4_o0_0_S2048x1 ⟨0, by omega⟩ rfl r z
  | ⟨1, _⟩ => exact radCol_apply (radTerm P1 P2 P4 P5) 1 slices_S2048x4_o0_1_S2048x1 ⟨1, by omega⟩ rfl r z
  | ⟨2, _⟩ => exact radCol_apply (radTerm P1 P2 P4 P5) 2 slices_S2048x4_o0_2_S2048x1 ⟨2, by omega⟩ rfl r z
  | ⟨3, _⟩ => exact radCol_apply (radTerm P1 P2 P4 P5) 3 slices_S2048x4_o0_3_S2048x1 ⟨3, by omega⟩ rfl r z

/-- THE BLOCK, ENTRY BY ENTRY: at row r and column c the stored value is `entry` of row r's three lane sums, the
    radial scale, shift c / 9, and the angular weight and section c mod 9. -/
theorem block_apply (P0 P3 : FVec Ideal S9 .f32) (P1 P2 : FVec Ideal S1x2048x3 .f32) (P4 : FVec Ideal S1 .f32) (P5 : FVec Ideal S4 .f32)
    (r : Fin 2048) (c : Fin 36) :
    E5 (F := Ideal) P0 P1 P2 P3 P4 P5 (ix2 r c)
      = entry (slabSum P1 P1 r) (slabSum P2 P2 r) (slabSum P1 P2 r) (P4 (ix1 (0 : Fin 1))) (P5 (ix1 (grp c))) (P0 (ix1 (lane c))) (P3 (ix1 (lane c))) := by
  have j0 : ix5_0 (ix2 r c) = ix2 r (lane c) := funext fun a => by match a with | ⟨0, _⟩ => rfl | ⟨1, _⟩ => rfl
  have j1 : ix5_1 (ix2 r c) = ix2 r (lane c) := funext fun a => by match a with | ⟨0, _⟩ => rfl | ⟨1, _⟩ => rfl
  have j2 : ix5_2 (ix2 r c) = ix1 r := funext fun a => by match a with | ⟨0, _⟩ => rfl
  have j3 : ix5_3 (ix2 r c) = ix1 r := funext fun a => by match a with | ⟨0, _⟩ => rfl
  have j4 : ix5_4 (ix2 r c) = ix1 r := funext fun a => by match a with | ⟨0, _⟩ => rfl
  have j5 : ix5_5 (ix2 r c) = ix1 r := funext fun a => by match a with | ⟨0, _⟩ => rfl
  show Ideal.ofBits .f32 0x40800000#32
        * Ideal.exp (Ideal.ofBits .f32 0x00000000#32
            - (Cat5_0 (F := Ideal) P0 P1 P2 P3 P4 P5 (csel5_0 (ix2 r c)) (ix5_0 (ix2 r c))
               + Cat5_1 (F := Ideal) P0 P1 P2 P3 P4 P5 (csel5_1 (ix2 r c)) (ix5_1 (ix2 r c))))
      * (Ideal.div ((Ideal.ofBits .f32 0x41440000#32 - laneSum P1 P1 (ix5_2 (ix2 r c))) * (Ideal.ofBits .f32 0x41440000#32 - laneSum P1 P1 (ix5_3 (ix2 r c))))
            (Ideal.ofBits .f32 0x43161000#32)
         * Ideal.div ((Ideal.ofBits .f32 0x41440000#32 - laneSum P2 P2 (ix5_4 (ix2 r c))) * (Ideal.ofBits .f32 0x41440000#32 - laneSum P2 P2 (ix5_5 (ix2 r c))))
            (Ideal.ofBits .f32 0x43161000#32)) = _
  rw [j0, j1, j2, j3, j4, j5, angCat_eq, angTerm_apply, radCat_apply, radTerm_apply, laneSum_apply, laneSum_apply]
  rfl

end Cert.KernelIdeal.Block

end
-- ==== Proof.KernelArray.lean ====
/-
  From the blocks to the whole result array.

  Grid point t stages rows [2048 t, 2048 t + 2048) of both displacement rows (window 0's block index is (0, t, 0)),
  the four tables whole, and writes back rows [2048 t, 2048 t + 2048) of the result (window 5's block index is (t, 0)).
  So what point t writes back is block t of the specification `G` of the argument arrays; the 2048 blocks tile the
  4194304 rows, hence the array after the run is `G`.
-/
import proofs.«160264_j29824252903586_2_alg».proof.Proof.KernelBlock

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.AngularSpec
open Idealize.ShloMosaic.Pipeline (Dat)

variable (m : (ℓ : Loc nD τ sig) → Buf (Elt Ideal) ℓ) (ρ : Dev nD → PrngReg)

/-- The printed index maps, decided over the 2048 grid points. -/
theorem idx_facts : ∀ t : Fin cfg0.N,
    win0_0.index t (0 : Fin 3) = 0 ∧ win0_0.index t (1 : Fin 3) = t.val ∧ win0_0.index t (2 : Fin 3) = 0
    ∧ win0_1.index t (0 : Fin 1) = 0 ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-- The block's entries for a general block index. -/
theorem block_apply' (P0 P3 : FVec Ideal S9 .f32) (P1 P2 : FVec Ideal S1x2048x3 .f32) (P4 : FVec Ideal S1 .f32) (P5 : FVec Ideal S4 .f32)
    (y : S2048x36.Idx) :
    E5 (F := Ideal) P0 P1 P2 P3 P4 P5 y
      = entry (slabSum P1 P1 (y 0)) (slabSum P2 P2 (y 0)) (slabSum P1 P2 (y 0)) (P4 (ix1 (0 : Fin 1))) (P5 (ix1 (grp (y 1)))) (P0 (ix1 (lane (y 1)))) (P3 (ix1 (lane (y 1)))) :=
  (congrArg (E5 (F := Ideal) P0 P1 P2 P3 P4 P5) (eq_ix2 y)).trans (block_apply P0 P3 P1 P2 P4 P5 (y 0) (y 1))

/-- `entry` of equal arguments. -/
theorem entry_congr {a1 a2 a3 a4 a5 a6 a7 b1 b2 b3 b4 b5 b6 b7 : EReal} (h1 : a1 = b1) (h2 : a2 = b2) (h3 : a3 = b3) (h4 : a4 = b4)
    (h5 : a5 = b5) (h6 : a6 = b6) (h7 : a7 = b7) : entry a1 a2 a3 a4 a5 a6 a7 = entry b1 b2 b3 b4 b5 b6 b7 := by
  rw [h1, h2, h3, h4, h5, h6, h7]

/-- WHAT POINT t WRITES BACK is block t of `G` of the argument arrays as the region finds them: the slabs loaded at
    point t are rows 2048 t + r of the two displacement rows, the tables are loaded whole, and the block is written to
    rows 2048 t + r. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [flushed5]
  obtain ⟨e00, e01, e02, e1, e2, e3, e4, e50, e51⟩ := idx_facts t
  funext j
  show out0_5 (iblk m c 0 t) (iblk m c 1 t) (iblk m c 2 t) (iblk m c 3 t) (iblk m c 4 t) j
      = G (V m c main_arg0) (V m c main_arg1) (V m c main_arg2) (V m c main_arg3) (V m c main_arg4) (((cfg0.win 5).blk t).view.emb j)
  unfold out0_5
  refine (canon5_eq _ _ _ _ _ _ j).trans ((block_apply' _ _ _ _ _ _ j).trans ?_)
  have hj0 : (j 0).val < 2048 := (j 0).isLt
  have hj1 : (j 1).val < 36 := (j 1).isLt
  -- an entry of slab s, read through the staged block, is the argument's entry in row s at the block's row offset
  have slab0 : ∀ k : Fin 3, View.ld (iblk m c 0 t) r0_0 (ix3 (0 : Fin 1) (j 0) k)
      = V m c main_arg0 (ix3 (0 : Fin 2) ((((cfg0.win 5).blk t).view.emb j) 0) k) := fun k => by
    show V m c main_arg0 (((cfg0.win 0).blk t).view.emb (r0_0.idx (ix3 (0 : Fin 1) (j 0) k))) = _
    refine congrArg (V m c main_arg0) (funext fun a => Fin.ext ?_)
    match a with
    | ⟨0, _⟩ => show win0_0.index t (0 : Fin 3) * 2 + 1 * (0 + 1 * 0) = 0; omega
    | ⟨1, _⟩ => show win0_0.index t (1 : Fin 3) * 2048 + 1 * (0 + 1 * (j 0).val) = win0_5.index t (0 : Fin 2) * 2048 + 1 * (j 0).val; omega
    | ⟨2, _⟩ => show win0_0.index t (2 : Fin 3) * 3 + 1 * (0 + 1 * k.val) = k.val; omega
  have slab1 : ∀ k : Fin 3, View.ld (iblk m c 0 t) r0_1 (ix3 (0 : Fin 1) (j 0) k)
      = V m c main_arg0 (ix3 (1 : Fin 2) ((((cfg0.win 5).blk t).view.emb j) 0) k) := fun k => by
    show V m c main_arg0 (((cfg0.win 0).blk t).view.emb (r0_1.idx (ix3 (0 : Fin 1) (j 0) k))) = _
    refine congrArg (V m c main_arg0) (funext fun a => Fin.ext ?_)
    match a with
    | ⟨0, _⟩ => show win0_0.index t (0 : Fin 3) * 2 + 1 * (1 + 1 * 0) = 1; omega
    | ⟨1, _⟩ => show win0_0.index t (1 : Fin 3) * 2048 + 1 * (0 + 1 * (j 0).val) = win0_5.index t (0 : Fin 2) * 2048 + 1 * (j 0).val; omega
    | ⟨2, _⟩ => show win0_0.index t (2 : Fin 3) * 3 + 1 * (0 + 1 * k.val) = k.val; omega
  refine entry_congr ?_ ?_ ?_ ?_ ?_ ?_ ?_
  · exact Finset.sum_congr rfl fun k _ => by rw [slab0 k]
  · exact Finset.sum_congr rfl fun k _ => by rw [slab1 k]
  · exact Finset.sum_congr rfl fun k _ => by rw [slab0 k, slab1 k]
  · show V m c main_arg1 (((cfg0.win 1).blk t).view.emb (r0_3.idx (ix1 (0 : Fin 1)))) = V m c main_arg1 (ix1 (0 : Fin 1))
    refine congrArg (V m c main_arg1) (funext fun a => Fin.ext ?_)
    match a with
    | ⟨0, _⟩ => show win0_1.index t (0 : Fin 1) * 1 + 1 * (0 + 1 * 0) = 0; omega
  · show V m c main_arg2 (((cfg0.win 2).blk t).view.emb (r0_4.idx (ix1 (grp (j 1))))) = V m c main_arg2 (ix1 (grp ((((cfg0.win 5).blk t).view.emb j) 1)))
    refine congrArg (V m c main_arg2) (funext fun a => Fin.ext ?_)
    match a with
    | ⟨0, _⟩ => show win0_2.index t (0 : Fin 1) * 4 + 1 * (0 + 1 * ((j 1).val / 9)) = (win0_5.index t (1 : Fin 2) * 36 + 1 * (j 1).val) / 9; omega
  · show V m c main_arg3 (((cfg0.win 3).blk t).view.emb (r0_2.idx (ix1 (lane (j 1))))) = V m c main_arg3 (ix1 (lane ((((cfg0.win 5).blk t).view.emb j) 1)))
    refine congrArg (V m c main_arg3) (funext fun a => Fin.ext ?_)
    match a with
    | ⟨0, _⟩ => show win0_3.index t (0 : Fin 1) * 9 + 1 * (0 + 1 * ((j 1).val % 9)) = (win0_5.index t (1 : Fin 2) * 36 + 1 * (j 1).val) % 9; omega
  · show V m c main_arg4 (((cfg0.win 4).blk t).view.emb (r0_2.idx (ix1 (lane (j 1))))) = V m c main_arg4 (ix1 (lane ((((cfg0.win 5).blk t).view.emb j) 1)))
    refine congrArg (V m c main_arg4) (funext fun a => Fin.ext ?_)
    match a with
    | ⟨0, _⟩ => show win0_4.index t (0 : Fin 1) * 9 + 1 * (0 + 1 * ((j 1).val % 9)) = (win0_5.index t (1 : Fin 2) * 36 + 1 * (j 1).val) % 9; omega

/-- An index of the result array is in point t's block iff each coordinate is in the block's range on its axis. -/
theorem mem_blk (t : Fin cfg0.N) (i : S4194304x36.Idx) :
    i ∈ ((cfg0.win 5).blk t).view.set ↔ ∀ a : Fin 2, win0_5.index t a * S2048x36.size a ≤ (i a).val ∧ (i a).val < win0_5.index t a * S2048x36.size a + S2048x36.size a := by
  show i ∈ ((View.whole main_v0).slice (win0_5.rect t)).set ↔ _
  rw [View.set_slice_whole, Rect.mem_set_unit]
  exact Iff.rfl

/-- THE BLOCKS TILE THE ARRAY: row i₀ is written by point i₀ / 2048. -/
theorem cover (i : S4194304x36.Idx) : ∃ t : Fin cfg0.N, (cfg0.win 5).flush t = true ∧ i ∈ ((cfg0.win 5).blk t).view.set := by
  have hi0 : (i 0).val < 4194304 := (i 0).isLt
  have hi1 : (i 1).val < 36 := (i 1).isLt
  obtain ⟨t, ht⟩ : ∃ t : Fin cfg0.N, t.val = (i 0).val / 2048 :=
    ⟨⟨(i 0).val / 2048, by show (i 0).val / 2048 < grid0.N; rw [N_0]; omega⟩, rfl⟩
  obtain ⟨-, -, -, -, -, -, -, e50, e51⟩ := idx_facts t
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 36 ≤ (i 1).val ∧ (i 1).val < win0_5.index t (1 : Fin 2) * 36 + 36; omega

/-- THE ARRAY after the run is `G` of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The kernel's run with the result array at the specification and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.ReferenceValue.lean ====
/-
  The reference's result, read one intermediate value at a time, is the specification.

  The reference computes the two norms ‖v[s, p, :]‖ = √(Σₖ v[s,p,k]²) for both rows at once, then the inner product, the
  cosine of the angle, the two cutoff factors (from the norms squared back), the mean norm, the angular and radial
  terms on broadcast axes [P, 1, 1, 9] and [P, 1, 4, 1], their sum on [P, 1, 4, 9], and flattens to [P, 36] in the
  order a · 9 + z. Each value below is read at an index whose coordinates are given as hypotheses, so that the
  slices, reshapes and broadcasts between them are index arithmetic only.
-/
import proofs.«160264_j29824252903586_2_alg».proof.Proof.Gen.ReferenceIdeal.Read
import proofs.«160264_j29824252903586_2_alg».proof.Proof.AngularSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.AngularSpec

variable (x0 : FVec Ideal S2x4194304x3 .f32)

/-- The norm of row s of pair p: the host's sum from the zero word is the plain sum. -/
theorem norm_apply (j : S2x4194304.Idx) (s : Fin 2) (p : Fin 4194304) (hs : (j 0).val = s.val) (hp : (j 1).val = p.val) :
    val_main_v0 (F := Ideal) x0 j = Ideal.sqrt (rowSum x0 s s p) := by
  rw [val_main_v0_apply, val_main_call0_v1_apply]
  have e : ∀ k : Fin 3, idx_main_call0_v1 j k = ix3 s p k := fun k => funext fun a => Fin.ext (by
    match a with
    | ⟨0, _⟩ => exact hs
    | ⟨1, _⟩ => exact hp
    | ⟨2, _⟩ => rfl)
  show Ideal.sqrt (Ideal.ofBits .f32 0x00000000#32 + ∑ k : Fin 3, x0 (idx_main_call0_v1 j k) * x0 (idx_main_call0_v1 j k)) = _
  rw [AngularLaws.ofBits_zero, zero_add]
  simp only [e]
  rfl

/-- Row 0's norm, sliced out and flattened to one axis. -/
theorem norm0_apply (q : S4194304.Idx) (p : Fin 4194304) (hp : (q 0).val = p.val) :
    val_main_v8 (F := Ideal) x0 q = Ideal.sqrt (rowSum x0 0 0 p) := by
  rw [val_main_v8_apply, val_main_v7_apply]
  refine norm_apply x0 _ 0 p rfl ?_
  show (q 0).val % 4194304 = p.val
  have h := p.isLt
  omega

/-- Row 1's norm, sliced out and flattened. -/
theorem norm1_apply (q : S4194304.Idx) (p : Fin 4194304) (hp : (q 0).val = p.val) :
    val_main_v10 (F := Ideal) x0 q = Ideal.sqrt (rowSum x0 1 1 p) := by
  rw [val_main_v10_apply, val_main_v9_apply]
  refine norm_apply x0 _ 1 p rfl ?_
  show (q 0).val % 4194304 = p.val
  have h := p.isLt
  omega

/-- The same two slices, taken a second time for the mean norm. -/
theorem norm0'_apply (q : S4194304.Idx) (p : Fin 4194304) (hp : (q 0).val = p.val) :
    val_main_v38 (F := Ideal) x0 q = Ideal.sqrt (rowSum x0 0 0 p) := by
  rw [val_main_v38_apply, val_main_v37_apply]
  refine norm_apply x0 _ 0 p rfl ?_
  show (q 0).val % 4194304 = p.val
  have h := p.isLt
  omega

theorem norm1'_apply (q : S4194304.Idx) (p : Fin 4194304) (hp : (q 0).val = p.val) :
    val_main_v40 (F := Ideal) x0 q = Ideal.sqrt (rowSum x0 1 1 p) := by
  rw [val_main_v40_apply, val_main_v39_apply]
  refine norm_apply x0 _ 1 p rfl ?_
  show (q 0).val % 4194304 = p.val
  have h := p.isLt
  omega

/-- The inner product of the two rows: each row sliced and flattened to [P, 3], multiplied, summed over the last axis. -/
theorem dot_apply (q : S4194304.Idx) (p : Fin 4194304) (hp : (q 0).val = p.val) :
    val_main_v6 (F := Ideal) x0 q = rowSum x0 0 1 p := by
  rw [val_main_v6_apply]
  show Ideal.ofBits .f32 0x00000000#32 + ∑ k : Fin 3, val_main_v5 (F := Ideal) x0 (idx_main_v6 q k) = _
  rw [AngularLaws.ofBits_zero, zero_add]
  refine Finset.sum_congr rfl fun k _ => ?_
  rw [val_main_v5_apply, val_main_v2_apply, val_main_v1_apply, val_main_v4_apply, val_main_v3_apply]
  have hpl := p.isLt
  have hk := k.isLt
  have e0 : idx_main_v1 (idx_main_v2 (idx_main_v6 q k)) = ix3 0 p k := funext fun a => Fin.ext (by
    match a with
    | ⟨0, _⟩ => rfl
    | ⟨1, _⟩ => show ((q 0).val * 3 + k.val) / 3 % 4194304 = p.val; omega
    | ⟨2, _⟩ => show ((q 0).val * 3 + k.val) % 3 = k.val; omega)
  have e1 : idx_main_v3 (idx_main_v4 (idx_main_v6 q k)) = ix3 1 p k := funext fun a => Fin.ext (by
    match a with
    | ⟨0, _⟩ => rfl
    | ⟨1, _⟩ => show ((q 0).val * 3 + k.val) / 3 % 4194304 = p.val; omega
    | ⟨2, _⟩ => show ((q 0).val * 3 + k.val) % 3 = k.val; omega)
  rw [e0, e1]
  rfl

/-- The cosine of the angle. -/
theorem cos_apply (q : S4194304.Idx) (p : Fin 4194304) (hp : (q 0).val = p.val) :
    val_main_v14 (F := Ideal) x0 q = cosAngle (rowSum x0 0 0 p) (rowSum x0 1 1 p) (rowSum x0 0 1 p) := by
  rw [val_main_v14_apply, val_main_v13_apply, val_main_v11_apply, val_main_v12_apply, val_main_cst_0_apply,
    dot_apply x0 q p hp, norm0_apply x0 q p hp, norm1_apply x0 q p hp]
  rfl

/-- One cutoff factor, for both rows at once: (c² - ‖v‖ · ‖v‖)² / (c² · c²). -/
theorem cutoff_apply (j : S2x4194304.Idx) (s : Fin 2) (p : Fin 4194304) (hs : (j 0).val = s.val) (hp : (j 1).val = p.val) :
    val_main_v21 (F := Ideal) x0 j = cutoffRef (rowSum x0 s s p) := by
  rw [val_main_v21_apply, val_main_v18_apply, val_main_v17_apply, val_main_v16_apply, val_main_cst_1_apply, val_main_v15_apply,
    norm_apply x0 j s p hs hp, val_main_v20_apply, val_main_v19_apply, val_main_cst_2_apply, val_main_cst_3_apply]
  rfl

/-- The product of the two cutoff factors. -/
theorem cutoffs_apply (q : S4194304.Idx) (p : Fin 4194304) (hp : (q 0).val = p.val) :
    val_main_v26 (F := Ideal) x0 q = cutoffRef (rowSum x0 0 0 p) * cutoffRef (rowSum x0 1 1 p) := by
  have hpl := p.isLt
  rw [val_main_v26_apply, val_main_v23_apply, val_main_v22_apply, val_main_v25_apply, val_main_v24_apply,
    cutoff_apply x0 _ 0 p rfl (by show (q 0).val % 4194304 = p.val; omega),
    cutoff_apply x0 _ 1 p rfl (by show (q 0).val % 4194304 = p.val; omega)]
  rfl

/-- The mean of the two norms. -/
theorem mean_apply (q : S4194304.Idx) (p : Fin 4194304) (hp : (q 0).val = p.val) :
    val_main_v43 (F := Ideal) x0 q = meanNorm (rowSum x0 0 0 p) (rowSum x0 1 1 p) := by
  rw [val_main_v43_apply, val_main_v42_apply, val_main_cst_4_apply, val_main_v41_apply, norm0'_apply x0 q p hp, norm1'_apply x0 q p hp]
  rfl

variable (x1 : FVec Ideal S1 .f32) (x2 : FVec Ideal S4 .f32) (x3 x4 : FVec Ideal S9 .f32)

/-- The angular term on [P, 1, 1, 9]: γ_z (cos θ_p - cos ζ_z)². -/
theorem ang_apply (j : S4194304x1x1x9.Idx) (p : Fin 4194304) (z : Fin 9) (hp : (j 0).val = p.val) (hz : (j 3).val = z.val) :
    val_main_v36 (F := Ideal) x0 x3 x4 j
      = x3 (ix1 z) * ((cosAngle (rowSum x0 0 0 p) (rowSum x0 1 1 p) (rowSum x0 0 1 p) - Ideal.cos (x4 (ix1 z)))
                      * (cosAngle (rowSum x0 0 0 p) (rowSum x0 1 1 p) (rowSum x0 0 1 p) - Ideal.cos (x4 (ix1 z)))) := by
  have e3 : idx_main_v34 (idx_main_v35 j) = ix1 z := funext fun a => Fin.ext (by match a with | ⟨0, _⟩ => exact hz)
  have e4 : idx_main_v29 (idx_main_v31 j) = ix1 z := funext fun a => Fin.ext (by match a with | ⟨0, _⟩ => exact hz)
  rw [val_main_v36_apply, val_main_v35_apply, val_main_v34_apply, val_main_v33_apply, val_main_v32_apply, val_main_v30_apply,
    val_main_v27_apply, cos_apply x0 _ p hp, val_main_v31_apply, val_main_v29_apply, val_main_v28_apply, e3, e4]
  rfl

/-- The radial term on [P, 1, 4, 1]: η (d̄_p - shf_a)². -/
theorem rad_apply (j : S4194304x1x4x1.Idx) (p : Fin 4194304) (a : Fin 4) (hp : (j 0).val = p.val) (ha : (j 2).val = a.val) :
    val_main_v52 (F := Ideal) x0 x1 x2 j
      = x1 (ix1 (0 : Fin 1)) * ((meanNorm (rowSum x0 0 0 p) (rowSum x0 1 1 p) - x2 (ix1 a))
                                * (meanNorm (rowSum x0 0 0 p) (rowSum x0 1 1 p) - x2 (ix1 a))) := by
  have e1 : idx_main_v44 (idx_main_v51 j) = ix1 (0 : Fin 1) := funext fun b => Fin.ext (by match b with | ⟨0, _⟩ => rfl)
  have e2 : idx_main_v46 (idx_main_v48 j) = ix1 a := funext fun b => Fin.ext (by match b with | ⟨0, _⟩ => exact ha)
  rw [val_main_v52_apply, val_main_v51_apply, val_main_v44_apply, val_main_v50_apply, val_main_v49_apply, val_main_v47_apply,
    val_main_v45_apply, mean_apply x0 _ p hp, val_main_v48_apply, val_main_v46_apply, e1, e2]
  rfl

/-- The result before flattening, on [P, 1, 4, 9]: the reference's arrangement of an entry. -/
theorem entry4_apply (j : S4194304x1x4x9.Idx) (p : Fin 4194304) (a : Fin 4) (z : Fin 9)
    (hp : (j 0).val = p.val) (ha : (j 2).val = a.val) (hz : (j 3).val = z.val) :
    val_main_v62 (F := Ideal) x0 x1 x2 x3 x4 j
      = entryRef (rowSum x0 0 0 p) (rowSum x0 1 1 p) (rowSum x0 0 1 p) (x1 (ix1 (0 : Fin 1))) (x2 (ix1 a)) (x3 (ix1 z)) (x4 (ix1 z)) := by
  rw [val_main_v62_apply, val_main_v59_apply, val_main_v58_apply, val_main_cst_5_apply, val_main_v57_apply, val_main_v56_apply,
    val_main_v55_apply, val_main_v53_apply, ang_apply x0 x3 x4 _ p z hp hz, val_main_v54_apply, rad_apply x0 x1 x2 _ p a hp ha,
    val_main_v61_apply, val_main_v60_apply, cutoffs_apply x0 _ p hp]
  rfl

/-- THE REFERENCE'S RESULT IS THE SPECIFICATION: flattened in the order a · 9 + z, and the reference's arrangement of an
    entry equal to the kernel's because a row's sum of squares is non-negative. -/
theorem result_eq : val_main_v63 (F := Ideal) x0 x1 x2 x3 x4 = G x0 x1 x2 x3 x4 := by
  funext i
  have h0 : (i 0).val < 4194304 := (i 0).isLt
  have h1 : (i 1).val < 36 := (i 1).isLt
  rw [val_main_v63_apply,
    entry4_apply x0 x1 x2 x3 x4 _ (i 0) (grp (i 1)) (lane (i 1))
      (by show ((i 0).val * 36 + (i 1).val) / 36 = (i 0).val; omega)
      (by show ((i 0).val * 36 + (i 1).val) / 9 % 4 = (i 1).val / 9; omega)
      (by show ((i 0).val * 36 + (i 1).val) % 9 = (i 1).val % 9; omega)]
  exact entryRef_eq (rowSum_self_nonneg x0 0 (i 0)) (rowSum_self_nonneg x0 1 (i 0)) _ _ _ _ _

end Cert.ReferenceIdeal.RefValue

end
-- ==== Proof.lean ====
/-
  The angular symmetry-function term of an atomic-environment descriptor: a tiled kernel against its array-level
  reference, equal as extended reals.

  For each of P = 4194304 pairs of displacement vectors u, w ∈ ℝ³ and each shift a < 4 and angular section z < 9 the
  result at (p, 9 a + z) is

      4 · exp (-(γ_z (cos θ - cos ζ_z)² + η (½ (‖u‖ + ‖w‖) - shf_a)²)) · ((c² - ‖u‖²)² / c⁴) ((c² - ‖w‖²)² / c⁴),

  cos θ = ⟨u, w⟩ / max (‖u‖ ‖w‖) ε. The kernel walks the pairs in 2048 blocks of 2048 rows; within a block it forms the
  three lane sums Σ uₖ², Σ wₖ², Σ uₖ wₖ per row, uses the sums of squares directly in the cutoff, divides by the
  constant c⁴ = 150.0625, negates by subtracting from zero, and lays the 36 columns out by concatenation. The reference
  takes the norms first and squares them back for the cutoff, divides by c² · c² with c² = 12.25, negates, and obtains
  the column order from a reshape of [P, 1, 4, 9].

  Both are the one function `AngularSpec.G` of the five argument arrays:
  • Proof/AngularLaws.lean — √x · √x = x for x ≥ 0 on the extended reals (also at +∞), a sum of squares is ≥ 0,
    12.25 · 12.25 = 150.0625, 0 - x = -x;
  • Proof/AngularSpec.lean — the function `G`, the two arrangements of an entry and their equality;
  • Proof/KernelBlock.lean — one stored block, entry by entry, from the loaded slabs and tables;
  • Proof/KernelArray.lean — point t writes block t of `G`, the blocks tile the array, so the array ends at `G`;
  • Proof/ReferenceValue.lean — the reference's result, one intermediate value at a time, is `G`;
  • Proof/LibKeepdims.lean — a lane sum kept as a column, and a column broadcast over a block, read at an index.
  No finiteness is used: the laws above hold on all extended reals. The three frames are the programs' own runs; the
  idealization rewrote nothing, so there is nothing to preserve.
-/
import proofs.«160264_j29824252903586_2_alg».proof.Defs
import proofs.«160264_j29824252903586_2_alg».proof.Proof.Gen.Kernel
import proofs.«160264_j29824252903586_2_alg».proof.Proof.Gen.Kernel.Skeleton
import proofs.«160264_j29824252903586_2_alg».proof.Proof.Gen.Kernel.Launch
import proofs.«160264_j29824252903586_2_alg».proof.Proof.Gen.Kernel.Points
import proofs.«160264_j29824252903586_2_alg».proof.Proof.Gen.Kernel.Frame
import proofs.«160264_j29824252903586_2_alg».proof.Proof.Gen.KernelIdeal
import proofs.«160264_j29824252903586_2_alg».proof.Proof.Gen.KernelIdeal.Skeleton
import proofs.«160264_j29824252903586_2_alg».proof.Proof.Gen.KernelIdeal.Launch
import proofs.«160264_j29824252903586_2_alg».proof.Proof.Gen.KernelIdeal.Points
import proofs.«160264_j29824252903586_2_alg».proof.Proof.Gen.KernelIdeal.Frame
import proofs.«160264_j29824252903586_2_alg».proof.Proof.Gen.ReferenceIdeal
import proofs.«160264_j29824252903586_2_alg».proof.Proof.Gen.Pre_finite_inputs
import proofs.«160264_j29824252903586_2_alg».proof.Proof.Gen.KernelIdeal.Value
import proofs.«160264_j29824252903586_2_alg».proof.Proof.Gen.ReferenceIdeal.Run
import proofs.«160264_j29824252903586_2_alg».proof.Proof.Gen.ReferenceIdeal.Read
import proofs.«160264_j29824252903586_2_alg».proof.Proof.KernelArray
import proofs.«160264_j29824252903586_2_alg».proof.Proof.ReferenceValue
import Idealize.ShloMosaic.Adequacy
import Idealize.ShloMosaic.Init

noncomputable section

namespace Cert.Proof

open Idealize.ShloMosaic Idealize.SL.Sem

/-- The kernel as printed runs, and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at `G` of its arguments (the blocks tile
    the array) and the reference's at its composed term, which is `G` of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
